-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S16x4096 : Shape := ⟨2, ![16, 4096]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel

variable [Facts]

def fn {F : FTy → Type} [FloatOps F] (main_arg0 : FVec F S16x4096x128 .f32) (main_arg1 : IVec S16x4096 1) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  main_v3
-- ==== Kernel.lean ====
abbrev S16x4096x128 : Shape := ⟨3, ![16, 4096, 128]⟩
abbrev S16x4096 : Shape := ⟨2, ![16, 4096]⟩
abbrev S16x2x2048x128 : Shape := ⟨4, ![16, 2, 2048, 128]⟩
abbrev S16x1x4096 : Shape := ⟨3, ![16, 1, 4096]⟩
abbrev S16x1x128 : Shape := ⟨3, ![16, 1, 128]⟩
abbrev S16x128 : Shape := ⟨2, ![16, 128]⟩
abbrev S4x1x2048x128 : Shape := ⟨4, ![4, 1, 2048, 128]⟩
abbrev S4x1x4096 : Shape := ⟨3, ![4, 1, 4096]⟩
abbrev S4x1x128 : Shape := ⟨3, ![4, 1, 128]⟩
abbrev S4x1x2048 : Shape := ⟨3, ![4, 1, 2048]⟩
abbrev S4x2048x128 : Shape := ⟨3, ![4, 2048, 128]⟩
abbrev S4x1 : Shape := ⟨2, ![4, 1]⟩
abbrev S4x1x1 : Shape := ⟨3, ![4, 1, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x4096x128, .f32⟩
  | .hbm, ⟨1, _⟩ => ⟨S16x4096, .i1⟩
  | .hbm, ⟨2, _⟩ => ⟨S16x2x2048x128, .f32⟩
  | .hbm, ⟨3, _⟩ => ⟨S16x1x4096, .i1⟩
  | .hbm, ⟨4, _⟩ => ⟨S16x1x4096, .i32⟩
  | .hbm, ⟨5, _⟩ => ⟨S16x1x128, .f32⟩
  | .hbm, ⟨6, _⟩ => ⟨S16x128, .f32⟩
  | .local _ .vmem, ⟨0, _⟩ => ⟨S4x1x2048x128, .f32⟩
  | .local _ .vmem, ⟨1, _⟩ => ⟨S4x1x2048x128, .f32⟩
  | .local _ .vmem, ⟨2, _⟩ => ⟨S4x1x2048x128, .f32⟩
  | .local _ .vmem, ⟨3, _⟩ => ⟨S4x1x2048x128, .f32⟩
  | .local _ .vmem, ⟨4, _⟩ => ⟨S4x1x4096, .i32⟩
  | .local _ .vmem, ⟨5, _⟩ => ⟨S4x1x4096, .i32⟩
  | .local _ .vmem, ⟨6, _⟩ => ⟨S4x1x128, .f32⟩
  | .local _ .vmem, ⟨7, _⟩ => ⟨S4x1x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x128_S16x2x2048x128 : S16x4096x128.ShapeCasts S16x2x2048x128
  shapeCasts_S16x4096_S16x1x4096 : S16x4096.ShapeCasts S16x1x4096
  natLt_1_32 : 1 < 32
  shapeCasts_S16x1x128_S16x128 : S16x1x128.ShapeCasts S16x128
  inb_S4x1x4096_S4x1x4096_0_0_0 : ∀ a, (![0, 0, 0] : Fin 3 → Nat) a + S4x1x4096.size a ≤ S4x1x4096.size a
  h_S4x1x4096 : 0 < S4x1x4096.numel
  shapeCasts_S4x1x4096_S4x1x4096 : S4x1x4096.ShapeCasts S4x1x4096
  slices_S4x1x4096_o0_0_0_S4x1x2048 : S4x1x4096.Slices ![0, 0, 0] S4x1x2048
  inb_S4x1x2048x128_S4x1x2048x128_0_0_0_0 : ∀ a, (![0, 0, 0, 0] : Fin 4 → Nat) a + S4x1x2048x128.size a ≤ S4x1x2048x128.size a
  h_S4x1x2048x128 : 0 < S4x1x2048x128.numel
  shapeCasts_S4x1x2048x128_S4x2048x128 : S4x1x2048x128.ShapeCasts S4x2048x128
  slices_S4x1x4096_o0_0_2048_S4x1x2048 : S4x1x4096.Slices ![0, 0, 2048] S4x1x2048
  reduces_S4x1x4096_S4x1 : S4x1x4096.Reduces [2] S4x1
  shapeCasts_S4x1_S4x1x1 : S4x1.ShapeCasts S4x1x1
  broadcasts_S4x1x1_S4x1x128 : S4x1x1.Broadcasts S4x1x128
  inb_S4x1x128_S4x1x128_0_0_0 : ∀ a, (![0, 0, 0] : Fin 3 → Nat) a + S4x1x128.size a ≤ S4x1x128.size a
  h_S4x1x128 : 0 < S4x1x128.numel
  dot_S4x1x2048_S4x2048x128_S4x1x128_2_1_1_2_0_0_wf : DotDims.WF S4x1x2048 S4x2048x128 S4x1x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x2048x128.size a ≤ S16x2x2048x128.size a
  hwx0_0 : ∀ i : grid0.Coords, EltTy.bits .f32 = 32 ∨ (Rect.block (s := S16x2x2048x128) S4x1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x2048x128.size a ≤ S16x2x2048x128.size a
  hwx0_1 : ∀ i : grid0.Coords, EltTy.bits .f32 = 32 ∨ (Rect.block (s := S16x2x2048x128) S4x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x4096.size a ≤ S16x1x4096.size a
  hwx0_2 : ∀ i : grid0.Coords, EltTy.bits .i32 = 32 ∨ (Rect.block (s := S16x1x4096) S4x1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x128.size a ≤ S16x1x128.size a
  hwx0_3 : ∀ i : grid0.Coords, EltTy.bits .f32 = 32 ∨ (Rect.block (s := S16x1x128) S4x1x128.size (cc0_transform_3 i) (hinb0_3 i)).WholeWords (EltTy.packing .f32)

variable [Facts₀]

def dot_S4x1x2048_S4x2048x128_S4x1x128_2_1_1_2_0_0 : DotDims S4x1x2048 S4x2048x128 S4x1x128 where
  lhsContracting := [2]
  rhsContracting := [1]
  lhsNonContracting := [1]
  rhsNonContracting := [2]
  lhsBatch := [0]
  rhsBatch := [0]
  wf := dot_S4x1x2048_S4x2048x128_S4x1x128_2_1_1_2_0_0_wf

abbrev win0_0 : Pipeline.Window sig grid0 :=
  Pipeline.Window.ofSpec (Memref.whole main_call0_v0) S4x1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S4x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S4x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16x4096 : Shape := ⟨2, ![16, 4096]⟩
abbrev S16x4096x1 : Shape := ⟨3, ![16, 4096, 1]⟩
abbrev S_ : Shape := ⟨0, ![]⟩
abbrev S16x128 : Shape := ⟨2, ![16, 128]⟩
abbrev S16x1 : Shape := ⟨2, ![16, 1]⟩

abbrev nBuf : Space → Nat
  | .hbm => 12
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096, .i1⟩
  | .hbm, ⟨2, _⟩ => ⟨S16x4096, .f32⟩
  | .hbm, ⟨3, _⟩ => ⟨S16x4096x1, .f32⟩
  | .hbm, ⟨4, _⟩ => ⟨S16x4096x128, .f32⟩
  | .hbm, ⟨5, _⟩ => ⟨S16x4096x128, .f32⟩
  | .hbm, ⟨6, _⟩ => ⟨S_, .f32⟩
  | .hbm, ⟨7, _⟩ => ⟨S16x128, .f32⟩
  | .hbm, ⟨8, _⟩ => ⟨S_, .f32⟩
  | .hbm, ⟨9, _⟩ => ⟨S16x1, .f32⟩
  | .hbm, ⟨10, _⟩ => ⟨S16x128, .f32⟩
  | .hbm, ⟨11, _⟩ => ⟨S16x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16x4096_S16x4096x1_0_1 : S16x4096.BroadcastsInDim S16x4096x1 (![0, 1] : Fin 2 → Fin S16x4096x1.rank)
  bcast_S16x4096x1_S16x4096x128_0_1_2 : S16x4096x1.BroadcastsInDim S16x4096x128 (![0, 1, 2] : Fin 3 → Fin S16x4096x128.rank)
  reducesTo_S16x4096x128_S16x128_d1 : S16x4096x128.ReducesTo [1] S16x128
  h_S_ : 0 < S_.numel
  reducesTo_S16x4096x1_S16x1_d1 : S16x4096x1.ReducesTo [1] S16x1
  bcast_S16x1_S16x128_0_1 : S16x1.BroadcastsInDim S16x128 (![0, 1] : Fin 2 → Fin S16x128.rank)

variable [Facts₀]

class Facts : Prop extends Facts₀ where

variable [Facts]
-- ==== Proof.KernelBody.lean ====
/-
  The kernel body of the masked mean, on its own: what one grid point does to its four staging buffers.

  A grid point holds four rows of the batch. Its body reads the rows' mask words (window 2) and the two halves of the
  rows' atoms (windows 0 and 1: the first and the last 2048 atoms of each row, two blocks of ONE array), and overwrites
  the whole output block (window 3) with one value computed from those three reads. Nothing is kept between points and
  no input buffer is written, so the proof data are: after the body every input buffer holds the block it was handed,
  and the output buffer holds that value; the invariant is only the core's scoped buffers that are no staging buffer.
  The two input windows on one array each hold HALF of it (the left and the right half share), which is what lets both
  be lent at once.
-/
import proofs.«132384_g33956011442265_cont_8to1_b_969_30_alg».proof.Proof.Gen.Kernel.Launch
import proofs.«132384_g33956011442265_cont_8to1_b_969_30_alg».proof.Proof.Gen.Kernel.Skeleton
import proofs.«132384_g33956011442265_cont_8to1_b_969_30_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m ((c : Dev nD), b)
/-- and when the region is entered: the two reshapes and the widening of the mask have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output buffer -/

abbrev rMask : Rect S4x1x4096 := Rect.unit (s := S4x1x4096) ![0, 0, 0] S4x1x4096.size inb_S4x1x4096_S4x1x4096_0_0_0
abbrev rHalf : Rect S4x1x2048x128 := Rect.unit (s := S4x1x2048x128) ![0, 0, 0, 0] S4x1x2048x128.size inb_S4x1x2048x128_S4x1x2048x128_0_0_0_0
abbrev rOut : Rect S4x1x128 := Rect.unit (s := S4x1x128) ![0, 0, 0] S4x1x128.size inb_S4x1x128_S4x1x128_0_0_0

/-- The output block after the body, from the mask block `x2` and the two half blocks `x0`, `x1`: its one store, which
    covers the block. -/
def outBlock (x2 : Vec F S4x1x4096 .i32) (x0 x1 : Vec F S4x1x2048x128 .f32) : Vec F S4x1x128 .f32 :=
  View.canon [⟨rOut, k0_pay1 (View.ld x2 rMask) (View.ld x0 rHalf) (View.ld x1 rHalf)⟩]

/-- The one store is the whole block. -/
theorem coverOut (p0 : Vec F S4x1x128 .f32) (y : S4x1x128.Idx) :
    ∃ pc ∈ ([⟨rOut, p0⟩] : List (View.Piece (Elt F) S4x1x128 .f32)), y ∈ pc.1.set :=
  View.cover_of_tiled [⟨rOut, p0⟩] S4x1x128.size (by rfl) y

/-! ## The body's triple -/

set_option maxHeartbeats 1000000 in
/-- The body on whole staging memrefs — the three inputs' at read contents, the output's at anything — runs to the
    continuation holding the inputs' as they were and the output's at `outBlock` of them. -/
theorem sound_kernel (c : Dev nD) (E : Set ℕ) (i : grid0.Coords)
    (arg1 : Memref sig .tc .vmem S4x1x2048x128 .f32) (harg1 : arg1.IsWhole) (arg2 : Memref sig .tc .vmem S4x1x2048x128 .f32) (harg2 : arg2.IsWhole)
    (arg3 : Memref sig .tc .vmem S4x1x4096 .i32) (harg3 : arg3.IsWhole) (arg4 : Memref sig .tc .vmem S4x1x128 .f32) (harg4 : arg4.IsWhole)
    (x0 x1 : Vec F S4x1x2048x128 .f32) (x2 : Vec F S4x1x4096 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x2 x0 x1)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data on core `c`: the arrays as the region finds them; after the body each input's buffer at its block and
    the output's at `outBlock` of the three; the invariant the scoped buffers no window stages; nothing owed; the array
    the two half windows read split between them, left half and right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 2 t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 2 t) (iblk m c 0 t) (iblk m c 1 t) := by dsimp only [dats]

/-- Each input's current staging buffer holds its block when the body runs: every point fetches it, whole. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of the masked-mean program: two reshapes and a widening of the mask, the kernel region over four grid points,
  one reshape of the result.

  @main is read as three segments. The first and the last are lines of host operations over the core's unscoped
  buffers held whole. The region in the middle is entered from those buffers: the three arrays its windows read or
  write are taken out of them — the array of atoms, read by the two half windows, is split into its left and right half
  share, one for each window — and the rest bypasses the region. At the region's exit the two halves, both still at the
  entry contents, are joined again, and the unscoped buffers are held whole once more, the result's array now at what
  the four write-backs left. Read against the final state, the arguments are as launched and the result is the reshape
  of that array.
-/
import proofs.«132384_g33956011442265_cont_8to1_b_969_30_alg».proof.Proof.KernelBody
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-! ## The arrays of the region, one by one -/

/-- The pipeline's arrays at contents `G`, listed: the array of atoms twice, at its two half shares. -/
theorem arrays_list (c : Dev nD) (G : (w : Fin cfg0.W) → Buf (Elt F) ((cfg0.win w).arr.view.loc (c : Thread nD τ))) :
    ((dats m 0 c).arrays G : sProp 𝕄)
      = iprop(((cfg0.win 0).arr.view.loc (c : Thread nD τ) ↦{fullShare.left} G 0)
          ∗ ((cfg0.win 1).arr.view.loc (c : Thread nD τ) ↦{fullShare.right} G 1)
          ∗ ((cfg0.win 2).arr.view.loc (c : Thread nD τ) ↦{fullShare} G 2)
          ∗ ((cfg0.win 3).arr.view.loc (c : Thread nD τ) ↦{fullShare} G 3)) := by
  unfold Dat.arrays
  rw [bigSep_W0, (arr_whole0 0).set_eq_univ, (arr_whole0 2).set_eq_univ, (arr_whole0 3).set_eq_univ]
  rfl

/-- The distinct buffers behind them at contents `W`, listed. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_call0_v0) ↦{fullShare} W main_call0_v0)
          ∗ (((c : Thread nD τ).loc main_call0_v2) ↦{fullShare} W main_call0_v2)
          ∗ (((c : Thread nD τ).loc main_call0_v3) ↦{fullShare} W main_call0_v3)) := by
  unfold Pipeline.arrBufs
  rw [bigSep_eq_bigSepL_of_eq [main_call0_v0, main_call0_v2, main_call0_v3] (by decide) (by decide)]
  rfl

/-- ENTRY: the array of atoms is split between the two half windows. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_list, arrBufs_list]
  iintro ⟨H0, H2, H3⟩
  ihave H := (pointsTo_share (PosShare.mem_left_op_right fullShare)).1 $$ H0
  icases H with ⟨Hl, Hr⟩
  isplitl [Hl]; · iexact Hl
  isplitl [Hr]; · iexact Hr
  isplitl [H2]; · iexact H2
  iexact H3

/-- The result's array after the four write-backs. -/
def outArr (c : Dev nD) : Buf (Elt F) ((cfg0.win 3).arr.view.loc (c : Thread nD τ)) := (dats m 0 c).arrAt 3 cfg0.N

/-- Core `c`'s buffers when the region is left: as it was entered, but for the result's array. -/
def V1 (c : Dev nD) : Valuation τ sig (Elt F) :=
  Function.update (StableHlo.after hostOps0 (V₀ m c)) (Proc.devRef .tc main_call0_v3) (outArr m c)

theorem V1_out (c : Dev nD) : V1 m c (Proc.devRef .tc main_call0_v3) = outArr m c := by
  unfold V1; exact Function.update_self _ _ _

theorem V1_of_ne (c : Dev nD) (b : Ref sig .tc) (hb : b ≠ main_call0_v3) : V1 m c (Proc.devRef .tc b) = V m c b := by
  unfold V1; exact Function.update_of_ne (StableHlo.devRef_ne_of_ne hb) _ _

/-- EXIT: the two halves, both at the entry contents, are the whole array again. -/
theorem arrays_exit (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c b) := by
  rw [arrays_list, arrBufs_list]
  rw [(dats m 0 c).arrAt_in 0 rfl cfg0.N, (dats m 0 c).arrAt_in 1 rfl cfg0.N, (dats m 0 c).arrAt_in 2 rfl cfg0.N]
  rw [V1_of_ne m c main_call0_v0 (by decide), V1_of_ne m c main_call0_v2 (by decide), V1_out]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

/-- What bypasses the region does not see the change. -/
theorem rest_exit (c : Dev nD) :
    (Pipeline.unscopedRest (Ix := Unit) (Name := ℕ) (U := UR sig nD τ) (Lvl := ℕ) spec0 c (fun b => V1 m c b) : sProp 𝕄)
      = Pipeline.unscopedRest spec0 c (V m c) := by
  rw [unscopedRest0_eq, unscopedRest0_eq]
  rw [V1_of_ne m c main_arg0 (by decide), V1_of_ne m c main_arg1 (by decide), V1_of_ne m c main_call0_v1 (by decide),
    V1_of_ne m c main_v0 (by decide)]

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The reshape after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- THE REGION, entered from what the first host segment left and left for the second. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V1 m c) ∗ R c)
  X _ := iprop(emp)
  Y _ := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs (0 : Fin 1) (by decide) c (V m c)]
    iintro ⟨⟨⟨Hab, Hrest⟩, HO⟩, -, -⟩
    ihave Ha := (arrays_entry m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    dsimp only [dats]
    iintro ⟨-, -, Hr⟩
    iexact Hr
  hout c := by
    rw [Pipeline.ownSems0_none]
    dsimp only [dats]
    iintro Hr
    isplitr; · iempintro
    isplitr; · iempintro
    iexact Hr
  hexit c := by
    rw [show StableHlo.held (c : Thread nD τ) (Pipeline.ucRefs τ sig) (V1 m c) = unscopedBufs c (fun b => V1 m c b) from (Pipeline.unscopedBufs_held c _).symm,
      Pipeline.unscopedBufs_split₀ cfgs (0 : Fin 1) (by decide) c (fun b => V1 m c b), rest_exit]
    iintro ⟨Ha, HO, -, HZ⟩
    imodintro
    isplitr [HO]
    · isplitl [Ha]
      · iapply (arrays_exit m c); iexact Ha
      · iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- Core `c`'s buffers at the end. -/
abbrev Vend (c : Dev nD) : Valuation τ sig (Elt F) := StableHlo.after hostOps1 (V1 m c)

theorem mem_ucRefs (b : Ref sig .tc) (hb : b.isScoped = false) : Proc.devRef (τ := τ) .tc b ∈ Pipeline.ucRefs τ sig :=
  Finset.mem_filter.mpr ⟨StableHlo.devRef_mem_tcRefs b, by simpa using hb⟩

set_option backward.isDefEq.respectTransparency.types false in
/-- At the compiled mesh, for any float values, from any memory with zero counters: every weakly fair execution of @main
    on the TensorCores terminates, and every final state has the unscoped buffers at `Vend`. -/
theorem run_all : θ_run defs (onTc (τ := τ) (main (F := F))) ⟨m, fun _ => 0, ρ⟩
    (fun r => ∀ c : Dev nD, ∀ b : Ref sig .tc, b.isScoped = false → r.2.mem ((c : Thread nD τ).loc b) = Vend m c (Proc.devRef .tc b)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = Vend m c (Proc.devRef .tc b))
    (hfin := fun c s' => by
      unfold StableHlo.held
      iintro ⟨Hh, HSI⟩
      imodintro
      ihave H := (pointsTo_read_all (Pipeline.ucRefs τ sig) (fun b => ((c : Thread nD τ).1, b)) (fun b => Vend m c b) s') $$ [Hh HSI]
      · isplitl [Hh] <;> iassumption
      icases H with ⟨%h, HSI⟩
      isplitr; · ipureintro; exact fun b hb => h _ (mem_ucRefs b hb)
      iexact HSI)
    (hQ := fun _ h => h)

end Cert.Kernel.Hand

end
-- ==== Proof.KernelFrame.lean ====
/-
  The masked-mean program's run, read at the buffers the claims speak of: no host operation and no write-back touches
  an argument, so both arguments end as launched; the result ends as the reshape, from [16, 1, 128] to [16, 128], of the
  array the four write-backs filled.
-/
import proofs.«132384_g33956011442265_cont_8to1_b_969_30_alg».proof.Proof.KernelRun

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ) (ρ : Dev nD → PrngReg)

/-- The first argument is written by nothing: it enters the region, and ends, as launched. -/
theorem V_arg0 (c : Dev nD) : V m c main_arg0 = m ((c : Thread nD τ).loc main_arg0) := by
  dsimp only [V, hostOps0]; after_results
theorem V_arg1 (c : Dev nD) : V m c main_arg1 = m ((c : Thread nD τ).loc main_arg1) := by
  dsimp only [V, hostOps0]; after_results

theorem Vend_arg0 (c : Dev nD) : Vend m c (Proc.devRef .tc main_arg0) = m ((c : Thread nD τ).loc main_arg0) := by
  dsimp only [Vend, hostOps1]; after_results
  exact (V1_of_ne m c main_arg0 (by decide)).trans (V_arg0 m c)
theorem Vend_arg1 (c : Dev nD) : Vend m c (Proc.devRef .tc main_arg1) = m ((c : Thread nD τ).loc main_arg1) := by
  dsimp only [Vend, hostOps1]; after_results
  exact (V1_of_ne m c main_arg1 (by decide)).trans (V_arg1 m c)

/-- The result's buffer ends at the reshape of the array the write-backs filled. -/
theorem Vend_out (c : Dev nD) :
    (Vend m c (Proc.devRef .tc main_v0) : S16x128.Idx → Elt F .f32)
      = shapeCast S16x128 (outArr m c : S16x1x128.Idx → Elt F .f32) shapeCasts_S16x1x128_S16x128 := by
  dsimp only [Vend, hostOps1]; after_results
  rw [V1_out]
  rfl

/-- The run, read at the result and the arguments. -/
theorem run_read : θ_run defs (onTc (τ := τ) (main (F := F))) ⟨m, fun _ => 0, ρ⟩ (fun r => ∀ c : Dev nD,
      (r.2.mem ((c.tc : Thread nD τ).loc main_v0) : S16x128.Idx → Elt F .f32)
        = shapeCast S16x128 (outArr m c : S16x1x128.Idx → Elt F .f32) shapeCasts_S16x1x128_S16x128
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0 rfl).trans (Vend_out m c),
      (h c main_arg0 rfl).trans (Vend_arg0 m c), (h c main_arg1 rfl).trans (Vend_arg1 m c)⟩) (run_all m ρ)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_read m ρ)

end Cert.Kernel.Hand

end
-- ==== Proof.KernelIdealBody.lean ====
/-
  The kernel body of the masked mean, on its own: what one grid point does to its four staging buffers.

  A grid point holds four rows of the batch. Its body reads the rows' mask words (window 2) and the two halves of the
  rows' atoms (windows 0 and 1: the first and the last 2048 atoms of each row, two blocks of ONE array), and overwrites
  the whole output block (window 3) with one value computed from those three reads. Nothing is kept between points and
  no input buffer is written, so the proof data are: after the body every input buffer holds the block it was handed,
  and the output buffer holds that value; the invariant is only the core's scoped buffers that are no staging buffer.
  The two input windows on one array each hold HALF of it (the left and the right half share), which is what lets both
  be lent at once.
-/
import proofs.«132384_g33956011442265_cont_8to1_b_969_30_alg».proof.Proof.Gen.KernelIdeal.Launch
import proofs.«132384_g33956011442265_cont_8to1_b_969_30_alg».proof.Proof.Gen.KernelIdeal.Skeleton
import proofs.«132384_g33956011442265_cont_8to1_b_969_30_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m ((c : Dev nD), b)
/-- and when the region is entered: the two reshapes and the widening of the mask have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output buffer -/

abbrev rMask : Rect S4x1x4096 := Rect.unit (s := S4x1x4096) ![0, 0, 0] S4x1x4096.size inb_S4x1x4096_S4x1x4096_0_0_0
abbrev rHalf : Rect S4x1x2048x128 := Rect.unit (s := S4x1x2048x128) ![0, 0, 0, 0] S4x1x2048x128.size inb_S4x1x2048x128_S4x1x2048x128_0_0_0_0
abbrev rOut : Rect S4x1x128 := Rect.unit (s := S4x1x128) ![0, 0, 0] S4x1x128.size inb_S4x1x128_S4x1x128_0_0_0

/-- The output block after the body, from the mask block `x2` and the two half blocks `x0`, `x1`: its one store, which
    covers the block. -/
def outBlock (x2 : Vec F S4x1x4096 .i32) (x0 x1 : Vec F S4x1x2048x128 .f32) : Vec F S4x1x128 .f32 :=
  View.canon [⟨rOut, k0_pay1 (View.ld x2 rMask) (View.ld x0 rHalf) (View.ld x1 rHalf)⟩]

/-- The one store is the whole block. -/
theorem coverOut (p0 : Vec F S4x1x128 .f32) (y : S4x1x128.Idx) :
    ∃ pc ∈ ([⟨rOut, p0⟩] : List (View.Piece (Elt F) S4x1x128 .f32)), y ∈ pc.1.set :=
  View.cover_of_tiled [⟨rOut, p0⟩] S4x1x128.size (by rfl) y

/-! ## The body's triple -/

set_option maxHeartbeats 1000000 in
/-- The body on whole staging memrefs — the three inputs' at read contents, the output's at anything — runs to the
    continuation holding the inputs' as they were and the output's at `outBlock` of them. -/
theorem sound_kernel (c : Dev nD) (E : Set ℕ) (i : grid0.Coords)
    (arg1 : Memref sig .tc .vmem S4x1x2048x128 .f32) (harg1 : arg1.IsWhole) (arg2 : Memref sig .tc .vmem S4x1x2048x128 .f32) (harg2 : arg2.IsWhole)
    (arg3 : Memref sig .tc .vmem S4x1x4096 .i32) (harg3 : arg3.IsWhole) (arg4 : Memref sig .tc .vmem S4x1x128 .f32) (harg4 : arg4.IsWhole)
    (x0 x1 : Vec F S4x1x2048x128 .f32) (x2 : Vec F S4x1x4096 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x2 x0 x1)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data on core `c`: the arrays as the region finds them; after the body each input's buffer at its block and
    the output's at `outBlock` of the three; the invariant the scoped buffers no window stages; nothing owed; the array
    the two half windows read split between them, left half and right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 2 t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 2 t) (iblk m c 0 t) (iblk m c 1 t) := by dsimp only [dats]

/-- Each input's current staging buffer holds its block when the body runs: every point fetches it, whole. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the masked-mean program: two reshapes and a widening of the mask, the kernel region over four grid points,
  one reshape of the result.

  @main is read as three segments. The first and the last are lines of host operations over the core's unscoped
  buffers held whole. The region in the middle is entered from those buffers: the three arrays its windows read or
  write are taken out of them — the array of atoms, read by the two half windows, is split into its left and right half
  share, one for each window — and the rest bypasses the region. At the region's exit the two halves, both still at the
  entry contents, are joined again, and the unscoped buffers are held whole once more, the result's array now at what
  the four write-backs left. Read against the final state, the arguments are as launched and the result is the reshape
  of that array.
-/
import proofs.«132384_g33956011442265_cont_8to1_b_969_30_alg».proof.Proof.KernelIdealBody
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-! ## The arrays of the region, one by one -/

/-- The pipeline's arrays at contents `G`, listed: the array of atoms twice, at its two half shares. -/
theorem arrays_list (c : Dev nD) (G : (w : Fin cfg0.W) → Buf (Elt F) ((cfg0.win w).arr.view.loc (c : Thread nD τ))) :
    ((dats m 0 c).arrays G : sProp 𝕄)
      = iprop(((cfg0.win 0).arr.view.loc (c : Thread nD τ) ↦{fullShare.left} G 0)
          ∗ ((cfg0.win 1).arr.view.loc (c : Thread nD τ) ↦{fullShare.right} G 1)
          ∗ ((cfg0.win 2).arr.view.loc (c : Thread nD τ) ↦{fullShare} G 2)
          ∗ ((cfg0.win 3).arr.view.loc (c : Thread nD τ) ↦{fullShare} G 3)) := by
  unfold Dat.arrays
  rw [bigSep_W0, (arr_whole0 0).set_eq_univ, (arr_whole0 2).set_eq_univ, (arr_whole0 3).set_eq_univ]
  rfl

/-- The distinct buffers behind them at contents `W`, listed. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_call0_v0) ↦{fullShare} W main_call0_v0)
          ∗ (((c : Thread nD τ).loc main_call0_v2) ↦{fullShare} W main_call0_v2)
          ∗ (((c : Thread nD τ).loc main_call0_v3) ↦{fullShare} W main_call0_v3)) := by
  unfold Pipeline.arrBufs
  rw [bigSep_eq_bigSepL_of_eq [main_call0_v0, main_call0_v2, main_call0_v3] (by decide) (by decide)]
  rfl

/-- ENTRY: the array of atoms is split between the two half windows. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_list, arrBufs_list]
  iintro ⟨H0, H2, H3⟩
  ihave H := (pointsTo_share (PosShare.mem_left_op_right fullShare)).1 $$ H0
  icases H with ⟨Hl, Hr⟩
  isplitl [Hl]; · iexact Hl
  isplitl [Hr]; · iexact Hr
  isplitl [H2]; · iexact H2
  iexact H3

/-- The result's array after the four write-backs. -/
def outArr (c : Dev nD) : Buf (Elt F) ((cfg0.win 3).arr.view.loc (c : Thread nD τ)) := (dats m 0 c).arrAt 3 cfg0.N

/-- Core `c`'s buffers when the region is left: as it was entered, but for the result's array. -/
def V1 (c : Dev nD) : Valuation τ sig (Elt F) :=
  Function.update (StableHlo.after hostOps0 (V₀ m c)) (Proc.devRef .tc main_call0_v3) (outArr m c)

theorem V1_out (c : Dev nD) : V1 m c (Proc.devRef .tc main_call0_v3) = outArr m c := by
  unfold V1; exact Function.update_self _ _ _

theorem V1_of_ne (c : Dev nD) (b : Ref sig .tc) (hb : b ≠ main_call0_v3) : V1 m c (Proc.devRef .tc b) = V m c b := by
  unfold V1; exact Function.update_of_ne (StableHlo.devRef_ne_of_ne hb) _ _

/-- EXIT: the two halves, both at the entry contents, are the whole array again. -/
theorem arrays_exit (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c b) := by
  rw [arrays_list, arrBufs_list]
  rw [(dats m 0 c).arrAt_in 0 rfl cfg0.N, (dats m 0 c).arrAt_in 1 rfl cfg0.N, (dats m 0 c).arrAt_in 2 rfl cfg0.N]
  rw [V1_of_ne m c main_call0_v0 (by decide), V1_of_ne m c main_call0_v2 (by decide), V1_out]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

/-- What bypasses the region does not see the change. -/
theorem rest_exit (c : Dev nD) :
    (Pipeline.unscopedRest (Ix := Unit) (Name := ℕ) (U := UR sig nD τ) (Lvl := ℕ) spec0 c (fun b => V1 m c b) : sProp 𝕄)
      = Pipeline.unscopedRest spec0 c (V m c) := by
  rw [unscopedRest0_eq, unscopedRest0_eq]
  rw [V1_of_ne m c main_arg0 (by decide), V1_of_ne m c main_arg1 (by decide), V1_of_ne m c main_call0_v1 (by decide),
    V1_of_ne m c main_v0 (by decide)]

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The reshape after it. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V1 m) R

set_option backward.isDefEq.respectTransparency.types false in
/-- THE REGION, entered from what the first host segment left and left for the second. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V1 m c) ∗ R c)
  X _ := iprop(emp)
  Y _ := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs (0 : Fin 1) (by decide) c (V m c)]
    iintro ⟨⟨⟨Hab, Hrest⟩, HO⟩, -, -⟩
    ihave Ha := (arrays_entry m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    dsimp only [dats]
    iintro ⟨-, -, Hr⟩
    iexact Hr
  hout c := by
    rw [Pipeline.ownSems0_none]
    dsimp only [dats]
    iintro Hr
    isplitr; · iempintro
    isplitr; · iempintro
    iexact Hr
  hexit c := by
    rw [show StableHlo.held (c : Thread nD τ) (Pipeline.ucRefs τ sig) (V1 m c) = unscopedBufs c (fun b => V1 m c b) from (Pipeline.unscopedBufs_held c _).symm,
      Pipeline.unscopedBufs_split₀ cfgs (0 : Fin 1) (by decide) c (fun b => V1 m c b), rest_exit]
    iintro ⟨Ha, HO, -, HZ⟩
    imodintro
    isplitr [HO]
    · isplitl [Ha]
      · iapply (arrays_exit m c); iexact Ha
      · iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- Core `c`'s buffers at the end. -/
abbrev Vend (c : Dev nD) : Valuation τ sig (Elt F) := StableHlo.after hostOps1 (V1 m c)

theorem mem_ucRefs (b : Ref sig .tc) (hb : b.isScoped = false) : Proc.devRef (τ := τ) .tc b ∈ Pipeline.ucRefs τ sig :=
  Finset.mem_filter.mpr ⟨StableHlo.devRef_mem_tcRefs b, by simpa using hb⟩

set_option backward.isDefEq.respectTransparency.types false in
/-- At the compiled mesh, for any float values, from any memory with zero counters: every weakly fair execution of @main
    on the TensorCores terminates, and every final state has the unscoped buffers at `Vend`. -/
theorem run_all : θ_run defs (onTc (τ := τ) (main (F := F))) ⟨m, fun _ => 0, ρ⟩
    (fun r => ∀ c : Dev nD, ∀ b : Ref sig .tc, b.isScoped = false → r.2.mem ((c : Thread nD τ).loc b) = Vend m c (Proc.devRef .tc b)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = Vend m c (Proc.devRef .tc b))
    (hfin := fun c s' => by
      unfold StableHlo.held
      iintro ⟨Hh, HSI⟩
      imodintro
      ihave H := (pointsTo_read_all (Pipeline.ucRefs τ sig) (fun b => ((c : Thread nD τ).1, b)) (fun b => Vend m c b) s') $$ [Hh HSI]
      · isplitl [Hh] <;> iassumption
      icases H with ⟨%h, HSI⟩
      isplitr; · ipureintro; exact fun b hb => h _ (mem_ucRefs b hb)
      iexact HSI)
    (hQ := fun _ h => h)

end Cert.KernelIdeal.Hand

end
-- ==== Proof.KernelIdealFrame.lean ====
/-
  The masked-mean program's run, read at the buffers the claims speak of: no host operation and no write-back touches
  an argument, so both arguments end as launched; the result ends as the reshape, from [16, 1, 128] to [16, 128], of the
  array the four write-backs filled.
-/
import proofs.«132384_g33956011442265_cont_8to1_b_969_30_alg».proof.Proof.KernelIdealRun

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ) (ρ : Dev nD → PrngReg)

/-- The first argument is written by nothing: it enters the region, and ends, as launched. -/
theorem V_arg0 (c : Dev nD) : V m c main_arg0 = m ((c : Thread nD τ).loc main_arg0) := by
  dsimp only [V, hostOps0]; after_results
theorem V_arg1 (c : Dev nD) : V m c main_arg1 = m ((c : Thread nD τ).loc main_arg1) := by
  dsimp only [V, hostOps0]; after_results

theorem Vend_arg0 (c : Dev nD) : Vend m c (Proc.devRef .tc main_arg0) = m ((c : Thread nD τ).loc main_arg0) := by
  dsimp only [Vend, hostOps1]; after_results
  exact (V1_of_ne m c main_arg0 (by decide)).trans (V_arg0 m c)
theorem Vend_arg1 (c : Dev nD) : Vend m c (Proc.devRef .tc main_arg1) = m ((c : Thread nD τ).loc main_arg1) := by
  dsimp only [Vend, hostOps1]; after_results
  exact (V1_of_ne m c main_arg1 (by decide)).trans (V_arg1 m c)

/-- The result's buffer ends at the reshape of the array the write-backs filled. -/
theorem Vend_out (c : Dev nD) :
    (Vend m c (Proc.devRef .tc main_v0) : S16x128.Idx → Elt F .f32)
      = shapeCast S16x128 (outArr m c : S16x1x128.Idx → Elt F .f32) shapeCasts_S16x1x128_S16x128 := by
  dsimp only [Vend, hostOps1]; after_results
  rw [V1_out]
  rfl

/-- The run, read at the result and the arguments. -/
theorem run_read : θ_run defs (onTc (τ := τ) (main (F := F))) ⟨m, fun _ => 0, ρ⟩ (fun r => ∀ c : Dev nD,
      (r.2.mem ((c.tc : Thread nD τ).loc main_v0) : S16x128.Idx → Elt F .f32)
        = shapeCast S16x128 (outArr m c : S16x1x128.Idx → Elt F .f32) shapeCasts_S16x1x128_S16x128
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0 rfl).trans (Vend_out m c),
      (h c main_arg0 rfl).trans (Vend_arg0 m c), (h c main_arg1 rfl).trans (Vend_arg1 m c)⟩) (run_all m ρ)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_read m ρ)

end Cert.KernelIdeal.Hand

end
-- ==== Proof.KernelIdealBlocks.lean ====
/-
  Where a grid point's blocks sit in their arrays, and what those arrays hold.

  Point `t` works on rows `4 t` … `4 t + 3` of the batch: row `b` of every one of its blocks is row `4 t + b` of the array,
  the first half window at half 0 and the second at half 1 of the [16, 2, 2048, 128] view of the atoms. That view is a
  reshape of the first argument — entry (r, h, k, d) is atom `2048 h + k` of row `r` —, and the mask words are the mask
  bits of the second argument, reshaped to [16, 1, 4096] and widened to 32 bits. The four points' output blocks tile the
  [16, 1, 128] result: row `r` is covered by point `r / 4`.
-/
import proofs.«132384_g33956011442265_cont_8to1_b_969_30_alg».proof.Proof.KernelIdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable {F : FTy → Type} [FloatOps F]

variable (m : (ℓ : Loc nD τ sig) → Buf (Elt F) ℓ)

/-- The printed index maps, decided over the grid: every window's leading block index is the point, the second half
    window sits at half 1, every other block index is 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 1 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem lt4 (t : Fin cfg0.N) : t.val < 4 := by
  have h := t.isLt; have e : cfg0.N = 4 := N_0; omega

/-- The row of the batch that row `b` of point `t`'s blocks is. -/
def row (t : Fin cfg0.N) (b : Fin 4) : Fin 16 := ⟨4 * t.val + b.val, by have := lt4 t; omega⟩

/-! ## The blocks' places in their arrays -/

theorem emb_out (t : Fin cfg0.N) (b : Fin 4) (d : Fin 128) :
    ((cfg0.win 3).blk t).view.emb (ix3 b (0 : Fin 1) d) = ix3 (row t b) (0 : Fin 1) d := by
  obtain ⟨-, -, -, -, -, -, -, -, -, -, -, e0, e1, e2⟩ := idx_facts t
  funext a; apply Fin.ext
  match a with
  | ⟨0, _⟩ => show win0_3.index t (0 : Fin 3) * 4 + 1 * b.val = 4 * t.val + b.val; omega
  | ⟨1, _⟩ => show win0_3.index t (1 : Fin 3) * 1 + 1 * 0 = 0; omega
  | ⟨2, _⟩ => show win0_3.index t (2 : Fin 3) * 128 + 1 * d.val = d.val; omega

theorem emb_mask (t : Fin cfg0.N) (b : Fin 4) (l : Fin 4096) :
    ((cfg0.win 2).blk t).view.emb (ix3 b (0 : Fin 1) l) = ix3 (row t b) (0 : Fin 1) l := by
  obtain ⟨-, -, -, -, -, -, -, -, e0, e1, e2, -, -, -⟩ := idx_facts t
  funext a; apply Fin.ext
  match a with
  | ⟨0, _⟩ => show win0_2.index t (0 : Fin 3) * 4 + 1 * b.val = 4 * t.val + b.val; omega
  | ⟨1, _⟩ => show win0_2.index t (1 : Fin 3) * 1 + 1 * 0 = 0; omega
  | ⟨2, _⟩ => show win0_2.index t (2 : Fin 3) * 4096 + 1 * l.val = l.val; omega

theorem emb_first (t : Fin cfg0.N) (b : Fin 4) (k : Fin 2048) (d : Fin 128) :
    ((cfg0.win 0).blk t).view.emb (ix4 b (0 : Fin 1) k d) = ix4 (row t b) (0 : Fin 2) k d := by
  obtain ⟨e0, e1, e2, e3, -, -, -, -, -, -, -, -, -, -⟩ := idx_facts t
  funext a; apply Fin.ext
  match a with
  | ⟨0, _⟩ => show win0_0.index t (0 : Fin 4) * 4 + 1 * b.val = 4 * t.val + b.val; omega
  | ⟨1, _⟩ => show win0_0.index t (1 : Fin 4) * 1 + 1 * 0 = 0; omega
  | ⟨2, _⟩ => show win0_0.index t (2 : Fin 4) * 2048 + 1 * k.val = k.val; omega
  | ⟨3, _⟩ => show win0_0.index t (3 : Fin 4) * 128 + 1 * d.val = d.val; omega

theorem emb_second (t : Fin cfg0.N) (b : Fin 4) (k : Fin 2048) (d : Fin 128) :
    ((cfg0.win 1).blk t).view.emb (ix4 b (0 : Fin 1) k d) = ix4 (row t b) (1 : Fin 2) k d := by
  obtain ⟨-, -, -, -, e0, e1, e2, e3, -, -, -, -, -, -⟩ := idx_facts t
  funext a; apply Fin.ext
  match a with
  | ⟨0, _⟩ => show win0_1.index t (0 : Fin 4) * 4 + 1 * b.val = 4 * t.val + b.val; omega
  | ⟨1, _⟩ => show win0_1.index t (1 : Fin 4) * 1 + 1 * 0 = 1; omega
  | ⟨2, _⟩ => show win0_1.index t (2 : Fin 4) * 2048 + 1 * k.val = k.val; omega
  | ⟨3, _⟩ => show win0_1.index t (3 : Fin 4) * 128 + 1 * d.val = d.val; omega

/-! ## The arrays the host operations wrote, read at an index -/

/-- The [16, 2, 2048, 128] view of the atoms at (r, h, k, d) is atom `2048 h + k` of row `r`. -/
theorem V_atoms_apply (c : Dev nD) (r : Fin 16) (h : Fin 2) (k : Fin 2048) (d : Fin 128) :
    (V m c main_call0_v0 : S16x2x2048x128.Idx → Elt F .f32) (ix4 r h k d)
      = (m ((c : Thread nD τ).loc main_arg0) : S16x4096x128.Idx → Elt F .f32) (ix3 r (⟨2048 * h.val + k.val, by omega⟩ : Fin 4096) d) := by
  have e : (V m c main_call0_v0 : S16x2x2048x128.Idx → Elt F .f32)
      = shapeCast S16x2x2048x128 (m ((c : Thread nD τ).loc main_arg0) : S16x4096x128.Idx → Elt F .f32) shapeCasts_S16x4096x128_S16x2x2048x128 := by
    dsimp only [V, hostOps0]; after_results; rfl
  rw [e]
  exact shapeCast_apply _ _ _ _ (by
    show ((⟨3, ![16, 4096, 128]⟩ : Shape).rowMajor (ix3 r (⟨2048 * h.val + k.val, by omega⟩ : Fin 4096) d)).val
      = ((⟨4, ![16, 2, 2048, 128]⟩ : Shape).rowMajor (ix4 r h k d)).val
    rw [Shape.rowMajor_val_three, Shape.rowMajor_val_four]
    show (r.val * 4096 + (2048 * h.val + k.val)) * 128 + d.val = ((r.val * 2 + h.val) * 2048 + k.val) * 128 + d.val
    omega)

/-- The mask words at (r, 0, l) are the mask bit of row `r`, atom `l`, widened. -/
theorem V_mask_apply (c : Dev nD) (r : Fin 16) (l : Fin 4096) :
    (V m c main_call0_v2 : S16x1x4096.Idx → Elt F .i32) (ix3 r (0 : Fin 1) l)
      = ((m ((c : Thread nD τ).loc main_arg1) : S16x4096.Idx → Elt F .i1) (ix2 r l)).setWidth 32 := by
  have e : (V m c main_call0_v2 : S16x1x4096.Idx → Elt F .i32)
      = extui 32 (shapeCast S16x1x4096 (m ((c : Thread nD τ).loc main_arg1) : S16x4096.Idx → Elt F .i1) shapeCasts_S16x4096_S16x1x4096) natLt_1_32 := by
    dsimp only [V, hostOps0]; after_results; rfl
  rw [e, extui_apply]
  refine congrArg (fun w : BitVec 1 => w.setWidth 32) ?_
  exact shapeCast_apply _ _ _ _ (by
    show ((⟨2, ![16, 4096]⟩ : Shape).rowMajor (ix2 r l)).val = ((⟨3, ![16, 1, 4096]⟩ : Shape).rowMajor (ix3 r (0 : Fin 1) l)).val
    rw [Shape.rowMajor_val_two, Shape.rowMajor_val_three]
    show r.val * 4096 + l.val = (r.val * 1 + 0) * 4096 + l.val
    omega)

/-! ## The blocks read at an index -/

theorem iblk_mask (c : Dev nD) (t : Fin cfg0.N) (b : Fin 4) (l : Fin 4096) :
    iblk m c 2 t (ix3 b (0 : Fin 1) l) = ((m ((c : Thread nD τ).loc main_arg1) : S16x4096.Idx → Elt F .i1) (ix2 (row t b) l)).setWidth 32 := by
  show (V m c main_call0_v2 : S16x1x4096.Idx → Elt F .i32) (((cfg0.win 2).blk t).view.emb (ix3 b (0 : Fin 1) l)) = _
  rw [emb_mask]; exact V_mask_apply m c _ l

theorem iblk_first (c : Dev nD) (t : Fin cfg0.N) (b : Fin 4) (k : Fin 2048) (d : Fin 128) :
    iblk m c 0 t (ix4 b (0 : Fin 1) k d)
      = (m ((c : Thread nD τ).loc main_arg0) : S16x4096x128.Idx → Elt F .f32) (ix3 (row t b) (⟨k.val, by omega⟩ : Fin 4096) d) := by
  show (V m c main_call0_v0 : S16x2x2048x128.Idx → Elt F .f32) (((cfg0.win 0).blk t).view.emb (ix4 b (0 : Fin 1) k d)) = _
  rw [emb_first, V_atoms_apply]
  exact congrArg (fun q : Fin 4096 => (m ((c : Thread nD τ).loc main_arg0) : S16x4096x128.Idx → Elt F .f32) (ix3 (row t b) q d)) (Fin.ext (by show 2048 * 0 + k.val = k.val; omega))

theorem iblk_second (c : Dev nD) (t : Fin cfg0.N) (b : Fin 4) (k : Fin 2048) (d : Fin 128) :
    iblk m c 1 t (ix4 b (0 : Fin 1) k d)
      = (m ((c : Thread nD τ).loc main_arg0) : S16x4096x128.Idx → Elt F .f32) (ix3 (row t b) (⟨2048 + k.val, by omega⟩ : Fin 4096) d) := by
  show (V m c main_call0_v0 : S16x2x2048x128.Idx → Elt F .f32) (((cfg0.win 1).blk t).view.emb (ix4 b (0 : Fin 1) k d)) = _
  rw [emb_second, V_atoms_apply]
  exact congrArg (fun q : Fin 4096 => (m ((c : Thread nD τ).loc main_arg0) : S16x4096x128.Idx → Elt F .f32) (ix3 (row t b) q d)) (Fin.ext (by show 2048 * 1 + k.val = 2048 + k.val; omega))

/-! ## The output blocks tile the result's array -/

theorem mem_blk_out (t : Fin cfg0.N) (i : S16x1x128.Idx) :
    i ∈ ((cfg0.win 3).blk t).view.set ↔ ∀ a : Fin 3, win0_3.index t a * S4x1x128.size a ≤ (i a).val ∧ (i a).val < win0_3.index t a * S4x1x128.size a + S4x1x128.size a := by
  show i ∈ ((View.whole main_call0_v3).slice (win0_3.rect t)).set ↔ _
  rw [View.set_slice_whole, Rect.mem_set_unit]
  exact Iff.rfl

/-- Every index of the result's array is in the block of the point its row belongs to. -/
theorem cover_out (i : S16x1x128.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 128 := (i 2).isLt
  have hN : (i 0).val / 4 < cfg0.N := by rw [show cfg0.N = 4 from N_0]; omega
  obtain ⟨-, -, -, -, -, -, -, -, -, -, -, e0, e1, e2⟩ := idx_facts ⟨(i 0).val / 4, hN⟩
  refine ⟨⟨(i 0).val / 4, hN⟩, flush0_3 _, ?_⟩
  rw [mem_blk_out]
  intro a
  match a with
  | ⟨0, _⟩ =>
    show win0_3.index ⟨(i 0).val / 4, hN⟩ (0 : Fin 3) * 4 ≤ (i 0).val ∧ (i 0).val < win0_3.index ⟨(i 0).val / 4, hN⟩ (0 : Fin 3) * 4 + 4
    rw [e0]; show (i 0).val / 4 * 4 ≤ (i 0).val ∧ (i 0).val < (i 0).val / 4 * 4 + 4; omega
  | ⟨1, _⟩ =>
    show win0_3.index ⟨(i 0).val / 4, hN⟩ (1 : Fin 3) * 1 ≤ (i 1).val ∧ (i 1).val < win0_3.index ⟨(i 0).val / 4, hN⟩ (1 : Fin 3) * 1 + 1
    rw [e1]; omega
  | ⟨2, _⟩ =>
    show win0_3.index ⟨(i 0).val / 4, hN⟩ (2 : Fin 3) * 128 ≤ (i 2).val ∧ (i 2).val < win0_3.index ⟨(i 0).val / 4, hN⟩ (2 : Fin 3) * 128 + 128
    rw [e2]; omega

end Cert.KernelIdeal.Hand

end
-- ==== Proof.MaskedMean.lean ====
/-
  The masked mean over the atom axis, as one function of the two argument arrays.

  For a value array `x : [16, 4096, 128]` and a one-bit mask `mk : [16, 4096]`, the result at `(r, d)` is

      (∑ l, x[r, l, d] · w(mk[r, l]))  /  (∑ l, w(mk[r, l])),

  where `w` reads a mask bit as the extended real `0` or `1` and the quotient is the ideal values' division.
  Also here: a sum over the 4096 atoms is the sum over the first 2048 plus the sum over the last 2048, in any additive
  commutative monoid (the extended reals are one), and the weight of a bit from the bit's two possible values.
-/
import Idealize.ShloMosaic.PureOps.Ideal
import Idealize.ShloMosaic.Lib.ValueIdx

noncomputable section

open scoped BigOperators

namespace Cert.MaskedMean

open Idealize.ShloMosaic Idealize.ShloMosaic.ValueIdx

/-- A mask bit as an extended real: the bit read as an unsigned integer, `0` or `1`. -/
def wt (b : BitVec 1) : EReal := ((b.toNat : ℝ) : EReal)

/-- The clear bit weighs `0`. -/
theorem wt_zero : wt 0#1 = 0 := by
  show (((0#1 : BitVec 1).toNat : ℝ) : EReal) = 0
  simp

/-- The set bit weighs `1`. -/
theorem wt_one : wt 1#1 = 1 := by
  show (((1#1 : BitVec 1).toNat : ℝ) : EReal) = 1
  simp

/-- The masked mean: at `(r, d)`, the mask-weighted sum of `x[r, ·, d]` over the atoms divided by the mask's count on
    row `r`. -/
def G (x : (⟨3, ![16, 4096, 128]⟩ : Shape).Idx → EReal) (mk : (⟨2, ![16, 4096]⟩ : Shape).Idx → BitVec 1) :
    (⟨2, ![16, 128]⟩ : Shape).Idx → EReal :=
  fun i =>
    Ideal.div (∑ l : Fin 4096, x (ix3 (i 0 : Fin 16) l (i 1 : Fin 128)) * wt (mk (ix2 (i 0 : Fin 16) l)))
      (∑ l : Fin 4096, wt (mk (ix2 (i 0 : Fin 16) l)))

/-- The masked mean at an index given by its coordinates. -/
theorem G_apply (x : (⟨3, ![16, 4096, 128]⟩ : Shape).Idx → EReal) (mk : (⟨2, ![16, 4096]⟩ : Shape).Idx → BitVec 1)
    (r : Fin 16) (d : Fin 128) :
    G x mk (ix2 r d)
      = Ideal.div (∑ l : Fin 4096, x (ix3 r l d) * wt (mk (ix2 r l))) (∑ l : Fin 4096, wt (mk (ix2 r l))) := rfl

/-- A sum over the 4096 atoms is the sum over the first 2048 plus the sum over the last 2048. -/
theorem sum_halves {M : Type*} [AddCommMonoid M] (f : Fin 4096 → M) :
    ∑ l : Fin 4096, f l
      = (∑ k : Fin 2048, f ⟨k.val, by omega⟩) + ∑ k : Fin 2048, f ⟨2048 + k.val, by omega⟩ :=
  Fin.sum_univ_add (a := 2048) (b := 2048) f

end Cert.MaskedMean

end
-- ==== Proof.PayloadIsMaskedMean.lean ====
/-
  The kernel's stored value on one block of four rows is the masked mean of those rows.

  On a block the kernel holds the mask rows as 32-bit words `v0 : [4, 1, 4096]` (each the zero-extended mask bit) and the
  rows' values as two halves along the atom axis, `v6, v10 : [4, 1, 2048, 128]`. It forms the weights
  `w = float (zext (v0 ≠ 0))`, which are `0` or `1`; contracts the first 2048 weights of each row with `v6` and the last
  2048 with `v10` over the atom axis (one batched product per half, the row being the batch axis); adds the two; and
  divides by the sum of the row's weights, spread along the feature axis. At the ideal values each product is the plain
  sum of products over its 2048 atoms, so the two together are the sum over all 4096 atoms, and the divisor is the sum
  of the weights: the masked mean's expression, with the factors of each product in the other order.
-/
import proofs.«132384_g33956011442265_cont_8to1_b_969_30_alg».proof.Proof.Gen.KernelIdeal.Skeleton
import proofs.«132384_g33956011442265_cont_8to1_b_969_30_alg».proof.Proof.MaskedMean
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx
open Cert.MaskedMean

/-! ## The weight of one mask word -/

/-- A mask bit zero-extended to a word, tested against zero, extended again and converted: the bit's weight. -/
theorem weight_word (c : BitVec 1) :
    (FloatOps.sitofp (F := Ideal) .f32 ((IntOp.cmpi .ne (c.setWidth 32) 0#32).setWidth 32) : EReal) = wt c := by
  have hi : ((IntOp.cmpi .ne (c.setWidth 32) 0#32).setWidth 32).toInt = (c.toNat : ℤ) := by
    rcases BitVec.eq_zero_or_eq_one c with rfl | rfl <;> decide
  show ((((IntOp.cmpi .ne (c.setWidth 32) 0#32).setWidth 32).toInt : ℝ) : EReal) = ((c.toNat : ℝ) : EReal)
  rw [hi, Int.cast_natCast]

/-- The weights of a block: the mask words tested against zero, as `0.0` / `1.0`. -/
def wvec (v0 : Vec Ideal S4x1x4096 .i32) : FVec Ideal S4x1x4096 .f32 :=
  sitofp .f32 (extui 32 (cmpi .ne (shapeCast S4x1x4096 v0 shapeCasts_S4x1x4096_S4x1x4096) (constantI S4x1x4096 32 0#32)) natLt_1_32)

/-- On a block row whose words are the zero-extended bits `c l`, the weight at atom `l` is the weight of `c l`. -/
theorem wvec_apply (v0 : Vec Ideal S4x1x4096 .i32) (c : Fin 4096 → BitVec 1) (b : Fin 4)
    (h0 : ∀ l : Fin 4096, v0 (ix3 b (0 : Fin 1) l) = (c l).setWidth 32) (l : Fin 4096) :
    wvec v0 (ix3 b (0 : Fin 1) l) = wt (c l) := by
  show (FloatOps.sitofp (F := Ideal) .f32
    ((IntOp.cmpi .ne (shapeCast S4x1x4096 v0 shapeCasts_S4x1x4096_S4x1x4096 (ix3 b (0 : Fin 1) l)) 0#32).setWidth 32) : EReal) = _
  rw [shapeCast_self, h0 l]
  exact weight_word (c l)

/-! ## The layout steps at an index -/

section Layout
variable {α : Type}

/-- A rank-3 array cut along its last axis from `o` reads, at `(a, e, j)`, the source at `(a, e, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (e : Fin n1) (j : Fin m) (k : Fin n2) (hk : k.val = o + j.val) :
    extractStridedSlice ⟨3, ![n0, n1, m]⟩ ![0, 0, o] X h (ix3 a e j) = X (ix3 a e k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[m, 1, a, b]` array cast to `[m, a, b]` reads, at `(k, i, j)`, the operand at `(k, 0, i, j)`. -/
theorem shapeCast_m1ab_mab_apply {m a b : ℕ} (x : (⟨4, ![m, 1, a, b]⟩ : Shape).Idx → α)
    (h : (⟨4, ![m, 1, a, b]⟩ : Shape).ShapeCasts ⟨3, ![m, a, b]⟩) (k : Fin m) (i : Fin a) (j : Fin b) :
    shapeCast ⟨3, ![m, a, b]⟩ x h (ix3 k i j) = x (ix4 k (0 : Fin 1) i j) :=
  shapeCast_apply x h _ _ (by
    rw [Shape.rowMajor_val_four, Shape.rowMajor_val_three]
    show ((k.val * 1 + 0) * a + i.val) * b + j.val = (k.val * a + i.val) * b + j.val
    rw [Nat.mul_one, Nat.add_zero])

/-- An `[m, 1]` column cast to `[m, 1, 1]` reads, at `(k, u, v)`, the operand at `(k, 0)`. -/
theorem shapeCast_m1_m11_apply {m : ℕ} (x : (⟨2, ![m, 1]⟩ : Shape).Idx → α)
    (h : (⟨2, ![m, 1]⟩ : Shape).ShapeCasts ⟨3, ![m, 1, 1]⟩) (k : Fin m) (u v : Fin 1) :
    shapeCast ⟨3, ![m, 1, 1]⟩ x h (ix3 k u v) = x (ix2 k (0 : Fin 1)) :=
  shapeCast_apply x h _ _ (by
    have hu : u.val = 0 := by omega
    have hv : v.val = 0 := by omega
    rw [Shape.rowMajor_val_two, Shape.rowMajor_val_three]
    show k.val * 1 + 0 = (k.val * 1 + u.val) * 1 + v.val
    omega)

/-- A `[4, 1, 1]` column spread to `[4, 1, 128]` reads, at `(k, u, j)`, the operand at `(k, 0, 0)`. -/
theorem broadcastTo_411_41n_apply (x : S4x1x1.Idx → α) (h : S4x1x1.Broadcasts S4x1x128) (k : Fin 4) (u : Fin 1) (j : Fin 128) :
    broadcastTo S4x1x128 x h (ix3 k u j) = x (ix3 k (0 : Fin 1) (0 : Fin 1)) := by
  refine broadcastTo_apply x h (ix3 k u j) (ix3 k (0 : Fin 1) (0 : Fin 1)) fun ax => ?_
  match ax with
  | ⟨0, _⟩ => show k.val = if (4 : Nat) = 1 then 0 else k.val; rw [if_neg (by decide)]
  | ⟨1, _⟩ => show 0 = if (1 : Nat) = 1 then 0 else u.val; rw [if_pos rfl]
  | ⟨2, _⟩ => show 0 = if (1 : Nat) = 1 then 0 else j.val; rw [if_pos rfl]

end Layout

/-! ## The sum of a row's weights -/

/-- The sum along the atom axis of a `[4, 1, 4096]` array, at `(k, u)`, is the sum over the 4096 atoms of row `k`. -/
theorem atom_sum_apply (src : FVec Ideal S4x1x4096 .f32) (h : S4x1x4096.Reduces [2] S4x1) (hφ : FKind.Formats .f32)
    (hacc : (0x00000000#32 : BitVec FTy.f32.bits) = FKind.add.neutral .f32 hφ) (k : Fin 4) (u : Fin 1) :
    multiReduction (F := Ideal) .add [2] S4x1 src 0x00000000#32 h hφ hacc (ix2 k u) = ∑ l : Fin 4096, src (ix3 k u l) :=
  (Ideal.multiReduction_add_single src 0x00000000#32 h hφ hacc (ix2 k u)).trans
    (Finset.sum_congr rfl fun l _ => congrArg src (funext fun a => Fin.ext (by
      match a with | ⟨0, _⟩ => rfl | ⟨1, _⟩ => rfl | ⟨2, _⟩ => rfl)))

/-! ## One batched product over 2048 atoms -/

/-- The product's dimension numbers: atoms contracted, rows the batch axis. -/
abbrev D := dot_S4x1x2048_S4x2048x128_S4x1x128_2_1_1_2_0_0

theorem lhs_row (i : S4x1x128.Idx) (q : D.contr.Idx) : (D.lhsIdx i q 0).val = (i 0).val := by
  unfold DotDims.lhsIdx
  rw [dif_pos (show (0 : Fin S4x1x2048.rank) ∈ D.lhsBatch by decide)]
  rfl
theorem lhs_unit (i : S4x1x128.Idx) (q : D.contr.Idx) : (D.lhsIdx i q 1).val = (i 1).val := by
  unfold DotDims.lhsIdx
  rw [dif_neg (show ¬(1 : Fin S4x1x2048.rank) ∈ D.lhsBatch by decide),
    dif_pos (show (1 : Fin S4x1x2048.rank) ∈ D.lhsNonContracting by decide)]
  rfl
theorem lhs_atom (i : S4x1x128.Idx) (q : D.contr.Idx) : (D.lhsIdx i q 2).val = (q ⟨0, by decide⟩).val :=
  D.lhsIdx_val_of_single rfl i q
theorem rhs_row (i : S4x1x128.Idx) (q : D.contr.Idx) : (D.rhsIdx i q 0).val = (i 0).val := by
  unfold DotDims.rhsIdx
  rw [dif_pos (show (0 : Fin S4x2048x128.rank) ∈ D.rhsBatch by decide)]
  rfl
theorem rhs_atom (i : S4x1x128.Idx) (q : D.contr.Idx) : (D.rhsIdx i q 1).val = (q ⟨0, by decide⟩).val :=
  D.rhsIdx_val_of_single rfl i q
theorem rhs_feature (i : S4x1x128.Idx) (q : D.contr.Idx) : (D.rhsIdx i q 2).val = (i 2).val := by
  unfold DotDims.rhsIdx
  rw [dif_neg (show ¬(2 : Fin S4x2048x128.rank) ∈ D.rhsBatch by decide),
    dif_pos (show (2 : Fin S4x2048x128.rank) ∈ D.rhsNonContracting by decide)]
  rfl

/-- The batched product into a zero accumulator, at `(k, u, j)`: the sum over the 2048 atoms of the left operand at
    `(k, u, a)` times the right operand at `(k, a, j)`. -/
theorem dot_apply (L : FVec Ideal S4x1x2048 .f32) (R : FVec Ideal S4x2048x128 .f32) (k : Fin 4) (u : Fin 1) (j : Fin 128) :
    matmul (F := Ideal) D none L R (constant (F := Ideal) S4x1x128 .f32 0x00000000#32) (ix3 k u j)
      = ∑ a : Fin 2048, L (ix3 k u a) * R (ix3 k a j) := by
  show FloatOps.matmul D none L R (constant (F := Ideal) S4x1x128 .f32 0x00000000#32) (ix3 k u j) = _
  rw [Ideal.matmul_constant_zero_apply, ← Equiv.sum_comp (contrEquiv1 D 2048 rfl rfl).symm]
  refine Finset.sum_congr rfl fun a _ => ?_
  have ha := contrEquiv1_symm_val D 2048 rfl rfl a
  have el : D.lhsIdx (ix3 k u j) ((contrEquiv1 D 2048 rfl rfl).symm a) = ix3 k u a := funext fun ax => Fin.ext (by
    match ax with
    | ⟨0, _⟩ => exact lhs_row _ _
    | ⟨1, _⟩ => exact lhs_unit _ _
    | ⟨2, _⟩ => exact (lhs_atom _ _).trans ha)
  have er : D.rhsIdx (ix3 k u j) ((contrEquiv1 D 2048 rfl rfl).symm a) = ix3 k a j := funext fun ax => Fin.ext (by
    match ax with
    | ⟨0, _⟩ => exact rhs_row _ _
    | ⟨1, _⟩ => exact (rhs_atom _ _).trans ha
    | ⟨2, _⟩ => exact rhs_feature _ _)
  rw [el, er]

/-! ## The stored value -/

/-- The stored value as one term of its three inputs. -/
theorem pay_unfold (v0 : Vec Ideal S4x1x4096 .i32) (v6 v10 : Vec Ideal S4x1x2048x128 .f32) :
    k0_pay1 (F := Ideal) v0 v6 v10
      = divf
          (addf
            (matmul (F := Ideal) D none
              (extractStridedSlice S4x1x2048 ![0, 0, 0] (wvec v0) slices_S4x1x4096_o0_0_0_S4x1x2048)
              (shapeCast S4x2048x128 v6 shapeCasts_S4x1x2048x128_S4x2048x128 : FVec Ideal S4x2048x128 .f32)
              (constant (F := Ideal) S4x1x128 .f32 0x00000000#32))
            (matmul (F := Ideal) D none
              (extractStridedSlice S4x1x2048 ![0, 0, 2048] (wvec v0) slices_S4x1x4096_o0_0_2048_S4x1x2048)
              (shapeCast S4x2048x128 v10 shapeCasts_S4x1x2048x128_S4x2048x128 : FVec Ideal S4x2048x128 .f32)
              (constant (F := Ideal) S4x1x128 .f32 0x00000000#32)))
          (broadcastTo S4x1x128
            (shapeCast S4x1x1
              (multiReduction (F := Ideal) .add [2] S4x1 (wvec v0) 0x00000000#32 reduces_S4x1x4096_S4x1 (.inl rfl) rfl)
              shapeCasts_S4x1_S4x1x1)
            broadcasts_S4x1x1_S4x1x128) := rfl

/-- On block row `b`, which holds array row `r` — its mask words the zero-extended bits of `mk[r, ·]`, its two value halves
    the first and the last 2048 atoms of `x[r, ·, d]` — the stored value at feature `d` is the masked mean at `(r, d)`. -/
theorem pay_eq (v0 : Vec Ideal S4x1x4096 .i32) (v6 v10 : Vec Ideal S4x1x2048x128 .f32)
    (x : (⟨3, ![16, 4096, 128]⟩ : Shape).Idx → EReal) (mk : (⟨2, ![16, 4096]⟩ : Shape).Idx → BitVec 1)
    (b : Fin 4) (d : Fin 128) (r : Fin 16)
    (h0 : ∀ l : Fin 4096, v0 (ix3 b (0 : Fin 1) l) = (mk (ix2 r l)).setWidth 32)
    (h6 : ∀ k : Fin 2048, v6 (ix4 b (0 : Fin 1) k d) = x (ix3 r ⟨k.val, by omega⟩ d))
    (h10 : ∀ k : Fin 2048, v10 (ix4 b (0 : Fin 1) k d) = x (ix3 r ⟨2048 + k.val, by omega⟩ d)) :
    k0_pay1 (F := Ideal) v0 v6 v10 (ix3 b (0 : Fin 1) d) = G x mk (ix2 r d) := by
  have hw : ∀ l : Fin 4096, wvec v0 (ix3 b (0 : Fin 1) l) = wt (mk (ix2 r l)) :=
    wvec_apply v0 (fun l => mk (ix2 r l)) b h0
  rw [pay_unfold, G_apply, divf_apply, addf_apply]
  refine congrArg₂ Ideal.div ?_ ?_
  · refine Eq.trans ?_ (sum_halves fun l => x (ix3 r l d) * wt (mk (ix2 r l))).symm
    refine congrArg₂ (· + ·) ?_ ?_
    · refine (dot_apply _ _ b 0 d).trans (Finset.sum_congr rfl fun k _ => ?_)
      rw [slice3_axis2_apply 0 (wvec v0) _ b 0 k ⟨k.val, by omega⟩ (Nat.zero_add _).symm, shapeCast_m1ab_mab_apply,
        hw, h6 k, mul_comm]
    · refine (dot_apply _ _ b 0 d).trans (Finset.sum_congr rfl fun k _ => ?_)
      rw [slice3_axis2_apply 2048 (wvec v0) _ b 0 k ⟨2048 + k.val, by omega⟩ rfl, shapeCast_m1ab_mab_apply,
        hw, h10 k, mul_comm]
  · rw [broadcastTo_411_41n_apply, shapeCast_m1_m11_apply]
    exact (atom_sum_apply (wvec v0) _ _ _ b 0).trans (Finset.sum_congr rfl fun l _ => hw l)

end Cert.KernelIdeal.PayValue

end
-- ==== Proof.KernelIdealValue.lean ====
/-
  The masked-mean kernel's result as a function of its arguments, at the extended reals.

  Point `t` writes back, at row `b` and lane `d` of its output block, the masked mean of row `4 t + b` at lane `d`: its
  payload reads the row's mask words and the two halves of the row's atoms, which are the arguments' entries of that row
  (the blocks read at an index), and the payload of such blocks is the masked mean. The four blocks tile the [16, 1, 128]
  array, so the array ends holding the masked mean at (r, 0, d), and the result, its reshape to [16, 128], the masked mean
  at (r, d).
-/
import proofs.«132384_g33956011442265_cont_8to1_b_969_30_alg».proof.Proof.KernelIdealBlocks
import proofs.«132384_g33956011442265_cont_8to1_b_969_30_alg».proof.Proof.PayloadIsMaskedMean

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The atoms and the mask bits as launched. -/
abbrev atoms (c : Dev nD) : (⟨3, ![16, 4096, 128]⟩ : Shape).Idx → EReal := m ((c : Thread nD τ).loc main_arg0)
abbrev bits (c : Dev nD) : (⟨2, ![16, 4096]⟩ : Shape).Idx → BitVec 1 := m ((c : Thread nD τ).loc main_arg1)

/-- The [16, 1, 128] array of masked means: entry (r, 0, d) is the mean of row `r` at lane `d`. -/
def meanArr (c : Dev nD) : S16x1x128.Idx → EReal :=
  fun i => Cert.MaskedMean.G (atoms m c) (bits m c) (ix2 (i 0 : Fin 16) (i 2 : Fin 128))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem meanArr_apply (c : Dev nD) (r : Fin 16) (d : Fin 128) :
    meanArr m c (ix3 r (0 : Fin 1) d) = Cert.MaskedMean.G (atoms m c) (bits m c) (ix2 r d) := rfl

/-- What point `t` writes back is block `t` of ANY array that holds, at row `4 t + b` and lane `d`, the payload of the
    point's three input blocks at row `b` and lane `d`. -/
theorem flushed_of (c : Dev nD) (t : Fin cfg0.N) (A : S16x1x128.Idx → EReal)
    (h : ∀ (b : Fin 4) (d : Fin 128),
      k0_pay1 (F := Ideal) (iblk m c 2 t) (iblk m c 0 t) (iblk m c 1 t) (ix3 b (0 : Fin 1) d) = A (ix3 (row t b) (0 : Fin 1) d)) :
    (dats m 0 c).flushed 3 t = ((cfg0.win 3).blk t).view.read (Elt Ideal) A := by
  show (cfg0.win 3).cut (grid0.coords t) ((dats m 0 c).after 3 t) = _
  rw [after3]
  unfold outBlock
  rw [View.canon_unit_zero hz3]
  simp only [View.ld_unit_zero (S := S4x1x4096) hz3, View.ld_unit_zero (S := S4x1x2048x128) hz4]
  funext j
  obtain ⟨b, u, d, rfl⟩ : ∃ (b : Fin 4) (u : Fin 1) (d : Fin 128), j = ix3 b u d := ⟨j 0, j 1, j 2, eq_ix3 j⟩
  obtain rfl : u = 0 := Subsingleton.elim _ _
  show k0_pay1 (F := Ideal) (iblk m c 2 t) (iblk m c 0 t) (iblk m c 1 t) (ix3 b (0 : Fin 1) d)
    = A (((cfg0.win 3).blk t).view.emb (ix3 b (0 : Fin 1) d))
  rw [emb_out]
  exact h b d

/-- WHAT POINT `t` WRITES BACK is block `t` of the array of masked means: the payload reads the row's mask words and the
    two halves of the row's atoms, and of such blocks it is the row's masked mean. -/
theorem flushed_eq (c : Dev nD) (t : Fin cfg0.N) :
    (dats m 0 c).flushed 3 t = ((cfg0.win 3).blk t).view.read (Elt Ideal) (meanArr m c) :=
  flushed_of m c t (meanArr m c) fun b d =>
    (Cert.KernelIdeal.PayValue.pay_eq (iblk m c 2 t) (iblk m c 0 t) (iblk m c 1 t) (atoms m c) (bits m c) b d (row t b)
      (fun l => iblk_mask m c t b l) (fun k => iblk_first m c t b k d) (fun k => iblk_second m c t b k d)).trans
      (meanArr_apply m c (row t b) d).symm

/-- The array after the four write-backs is the array of masked means. -/
theorem final_out (c : Dev nD) : outArr m c = meanArr m c :=
  (dats m 0 c).arrAt_eq_of_cover 3 (meanArr m c) (fun t _ => flushed_eq m c t) cover_out

/-- Its reshape to [16, 128] is the masked mean. -/
theorem result_eq (c : Dev nD) :
    shapeCast S16x128 (meanArr m c) shapeCasts_S16x1x128_S16x128 = Cert.MaskedMean.G (atoms m c) (bits m c) := by
  funext i
  obtain ⟨r, d, rfl⟩ : ∃ (r : Fin 16) (d : Fin 128), i = ix2 r d := ⟨i 0, i 1, eq_ix2 i⟩
  exact (shapeCast_apply (meanArr m c) shapeCasts_S16x1x128_S16x128 (ix2 r d) (ix3 r (0 : Fin 1) d) (by
    show ((⟨3, ![16, 1, 128]⟩ : Shape).rowMajor (ix3 r (0 : Fin 1) d)).val = ((⟨2, ![16, 128]⟩ : Shape).rowMajor (ix2 r d)).val
    rw [Shape.rowMajor_val_three, Shape.rowMajor_val_two]
    show (r.val * 1 + 0) * 128 + d.val = r.val * 128 + d.val
    omega)).trans (meanArr_apply m c r d)

/-- At the extended reals, from any memory with zero counters: every weakly fair execution of @main terminates with
    the result at the masked mean of the arguments as launched, and the arguments unchanged. -/
theorem run_value : θ_run defs (onTc (τ := τ) (main (F := Ideal))) ⟨m, fun _ => 0, ρ⟩ (fun r => ∀ c : Dev nD,
      (r.2.mem ((c.tc : Thread nD τ).loc main_v0) : S16x128.Idx → EReal) = Cert.MaskedMean.G (atoms m c) (bits m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [final_out]; exact result_eq m c), (h c).2⟩) (run_read m ρ)

end Cert.KernelIdeal.HandValue

end
-- ==== Proof.RefIsMaskedMean.lean ====
/-
  The reference program's result is the masked mean.

  The reference converts the mask to `0` / `1`, broadcasts it along the feature axis, multiplies, sums over the atoms
  from a zero initial value, sums the converted mask over the atoms likewise, broadcasts that count along the feature
  axis and divides. Read at an index `(r, d)` each layout step reads one element of its operand, the two sums are sums
  over the 4096 atoms, and the zero initial values drop: what is left is the masked mean's own expression.
-/
import proofs.«132384_g33956011442265_cont_8to1_b_969_30_alg».proof.Proof.Gen.ReferenceIdeal.Read
import proofs.«132384_g33956011442265_cont_8to1_b_969_30_alg».proof.Proof.MaskedMean

noncomputable section

open scoped BigOperators

namespace Cert.ReferenceIdeal.RefValue

open Cert.ReferenceIdeal Cert.ReferenceIdeal.Gen Cert.ReferenceIdeal.Read Idealize.ShloMosaic Idealize.ShloMosaic.ValueIdx
open Cert.MaskedMean

/-- The summed product's operand index at result index `i` and atom `k` is `(i 0, k, i 1)`. -/
theorem idx_prod (i : S16x128.Idx) (k : Fin 4096) :
    idx_main_v4 i k = ix3 (i 0 : Fin 16) k (i 1 : Fin 128) :=
  funext fun a => Fin.ext (by match a with | ⟨0, _⟩ => rfl | ⟨1, _⟩ => rfl | ⟨2, _⟩ => rfl)

/-- Under the two broadcasts the mask is read at `(i 0, k)` for the product at `(i 0, k, i 1)`. -/
theorem idx_mask_prod (i : S16x128.Idx) (k : Fin 4096) :
    idx_main_v1 (idx_main_v2 (idx_main_v4 i k)) = ix2 (i 0 : Fin 16) k :=
  funext fun a => Fin.ext (by match a with | ⟨0, _⟩ => rfl | ⟨1, _⟩ => rfl)

/-- Under the count's broadcast and sum the mask is read at `(i 0, k)` too. -/
theorem idx_mask_count (i : S16x128.Idx) (k : Fin 4096) :
    idx_main_v1 (idx_main_v5 (idx_main_v6 i) k) = ix2 (i 0 : Fin 16) k :=
  funext fun a => Fin.ext (by match a with | ⟨0, _⟩ => rfl | ⟨1, _⟩ => rfl)

/-- The reference's result is the masked mean of its two arguments. -/
theorem ref_eq (x0 : (⟨S16x4096x128, .f32⟩ : BufTy).Contents (Elt Ideal)) (x1 : (⟨S16x4096, .i1⟩ : BufTy).Contents (Elt Ideal)) :
    val_main_v7 (F := Ideal) x0 x1 = G x0 x1 := by
  funext i
  rw [val_main_v7_apply, val_main_v4_apply, val_main_v6_apply, val_main_v5_apply, val_main_cst_apply, val_main_cst_0_apply,
    Ideal.hostDivf_def, Ideal.ofBits_def, Ideal.ofBits_zero_f32, zero_add, zero_add]
  refine congrArg₂ Ideal.div (Finset.sum_congr rfl fun k _ => ?_) (Finset.sum_congr rfl fun k _ => ?_)
  · rw [val_main_v3_apply, val_main_v2_apply, val_main_v1_apply, val_main_v0_apply, idx_mask_prod, idx_prod]
    rfl
  · rw [val_main_v1_apply, val_main_v0_apply, idx_mask_count]
    rfl

end Cert.ReferenceIdeal.RefValue

end
-- ==== Proof.lean ====
/-
  The masked mean over the atom axis: a TensorCore kernel against its jnp reference, equal over the extended reals.

  Inputs: atoms x : f32[16, 4096, 128] and a mask : bool[16, 4096]. The reference is
      out[r, d] = (Σ_l x[r, l, d] · m[r, l]) / (Σ_l m[r, l]),   m the mask as 0 / 1.
  The kernel walks the batch four rows at a time; per point it turns the rows' mask words into 0 / 1, multiplies the
  first 2048 mask entries with the first half of the row's atoms and the last 2048 with the second half (two matrix
  products into zero accumulators), adds the two, and divides by the sum of the mask entries. With every operation
  exact, the two products are the two halves of the reference's one sum, the factors in the other order: a sum over
  4096 atoms regrouped at atom 2048 and a commuted product, laws that hold on all extended reals, so the precondition
  (finite atoms) is never opened. The quotient is the same operation on both sides, applied to equal numerators and
  denominators.

  The two input windows over the halves are blocks of ONE array, so the kernel's run is assembled segment by segment
  (host operations, the region, a host operation), the array split between the two windows by halves of its share;
  that run is written once for any float instance and read at the word-level program for its frame and at the ideal
  program for its frame and its value. The reference's run is its host operations' composed term, read index by index.
  The idealization rewrote nothing, so what it preserves is trivially true.
-/
import proofs.«132384_g33956011442265_cont_8to1_b_969_30_alg».proof.Defs
import proofs.«132384_g33956011442265_cont_8to1_b_969_30_alg».proof.Proof.Gen.Kernel
import proofs.«132384_g33956011442265_cont_8to1_b_969_30_alg».proof.Proof.Gen.KernelIdeal
import proofs.«132384_g33956011442265_cont_8to1_b_969_30_alg».proof.Proof.Gen.ReferenceIdeal
import proofs.«132384_g33956011442265_cont_8to1_b_969_30_alg».proof.Proof.Gen.ReferenceIdeal.Run
import proofs.«132384_g33956011442265_cont_8to1_b_969_30_alg».proof.Proof.Gen.ReferenceIdeal.Read
import proofs.«132384_g33956011442265_cont_8to1_b_969_30_alg».proof.Proof.Gen.Pre_finite_inputs
import proofs.«132384_g33956011442265_cont_8to1_b_969_30_alg».proof.Proof.KernelFrame
import proofs.«132384_g33956011442265_cont_8to1_b_969_30_alg».proof.Proof.KernelIdealValue
import proofs.«132384_g33956011442265_cont_8to1_b_969_30_alg».proof.Proof.RefIsMaskedMean
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_p : Cert.frame_Kernel := fun m ρ _ => Cert.Kernel.Hand.frame m ρ

/-- So does the kernel read at the extended reals. -/
theorem frame_pi : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the masked mean of the arguments, which agree. -/
theorem algebraic : Cert.algebraic_KernelIdeal_ReferenceIdeal := by
  intro m ρ m' ρ' _ hagree
  refine ⟨fun c => Cert.MaskedMean.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
